-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4096x256 .f32) (main_arg1 : FVec F S256x256 .f32) (main_arg2 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x256 : Shape := ⟨2, ![4096, 256]⟩
abbrev S256x256 : Shape := ⟨2, ![256, 256]⟩
abbrev S256 : Shape := ⟨1, ![256]⟩
abbrev S1x256 : Shape := ⟨2, ![1, 256]⟩
abbrev S256x128 : Shape := ⟨2, ![256, 128]⟩
abbrev S256x1x128 : Shape := ⟨3, ![256, 1, 128]⟩
abbrev S1x256x128 : Shape := ⟨3, ![1, 256, 128]⟩
abbrev S256x256x128 : Shape := ⟨3, ![256, 256, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S256x256_o0_0_S256x128 : S256x256.Slices ![0, 0] S256x128
  shapeCasts_S256x128_S256x1x128 : S256x128.ShapeCasts S256x1x128
  shapeCasts_S256x128_S1x256x128 : S256x128.ShapeCasts S1x256x128
  broadcasts_S256x1x128_S256x256x128 : S256x1x128.Broadcasts S256x256x128
  broadcasts_S1x256x128_S256x256x128 : S1x256x128.Broadcasts S256x256x128
  reduces_S256x256x128_S256x256 : S256x256x128.Reduces [2] S256x256
  slices_S256x256_o0_128_S256x128 : S256x256.Slices ![0, 128] S256x128
  broadcasts_S1x256_S256x256 : S1x256.Broadcasts S256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S_ : Shape := ⟨0, ![]⟩
abbrev S4096x1x256 : Shape := ⟨3, ![4096, 1, 256]⟩
abbrev S1x256x256 : Shape := ⟨3, ![1, 256, 256]⟩
abbrev S4096x256x256 : Shape := ⟨3, ![4096, 256, 256]⟩
abbrev S1x256 : Shape := ⟨2, ![1, 256]⟩

abbrev nBuf : Space → Nat
  | .hbm => 24
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S4096x1x256, .f32⟩
  | .hbm, ⟨5, _⟩ => ⟨S1x256x256, .f32⟩
  | .hbm, ⟨6, _⟩ => ⟨S4096x256x256, .f32⟩
  | .hbm, ⟨7, _⟩ => ⟨S4096x256x256, .f32⟩
  | .hbm, ⟨8, _⟩ => ⟨S4096x256x256, .f32⟩
  | .hbm, ⟨9, _⟩ => ⟨S4096x256x256, .f32⟩
  | .hbm, ⟨10, _⟩ => ⟨S4096x256x256, .i1⟩
  | .hbm, ⟨11, _⟩ => ⟨S_, .f32⟩
  | .hbm, ⟨12, _⟩ => ⟨S_, .f32⟩
  | .hbm, ⟨13, _⟩ => ⟨S4096x256x256, .f32⟩
  | .hbm, ⟨14, _⟩ => ⟨S4096x256x256, .f32⟩
  | .hbm, ⟨15, _⟩ => ⟨S_, .f32⟩
  | .hbm, ⟨16, _⟩ => ⟨S4096x256, .f32⟩
  | .hbm, ⟨17, _⟩ => ⟨S_, .i1⟩
  | .hbm, ⟨18, _⟩ => ⟨S4096x256, .i1⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_v0 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S4096x256_S4096x1x256_0_2 : S4096x256.BroadcastsInDim S4096x1x256 (![0, 2] : Fin 2 → Fin S4096x1x256.rank)
  bcast_S256x256_S1x256x256_1_2 : S256x256.BroadcastsInDim S1x256x256 (![1, 2] : Fin 2 → Fin S1x256x256.rank)
  bcast_S4096x1x256_S4096x256x256_0_1_2 : S4096x1x256.BroadcastsInDim S4096x256x256 (![0, 1, 2] : Fin 3 → Fin S4096x256x256.rank)
  bcast_S1x256x256_S4096x256x256_0_1_2 : S1x256x256.BroadcastsInDim S4096x256x256 (![0, 1, 2] : Fin 3 → Fin S4096x256x256.rank)
  bcast_S_S4096x256x256 : S_.BroadcastsInDim S4096x256x256 (![] : Fin 0 → Fin S4096x256x256.rank)
  reducesTo_S4096x256x256_S4096x256_d2 : S4096x256x256.ReducesTo [2] S4096x256
  h_S_ : 0 < S_.numel
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)

variable [Facts₀]

class Facts : Prop extends Facts₀ where

variable [Facts]
-- ==== Proof.Tropical.lean ====
/-
  Order facts behind a tropical (max-plus) matrix product with a gate.

  For a finite family `p k` of extended reals (the sums `x[i,k] + w[j,k]` of one row pair), a threshold `Z` (the
  tropical zero) and a bias `b`, both programs compute

      gated Z p b  =  rowMax p + b   if  Z < rowMax p,      Z   otherwise,

  where `rowMax p` is the maximum of the family from `-∞`.  One program takes the maximum in two halves and compares
  it with `Z` afterwards (`split_gated`); the other first replaces every term that is not above `Z` by `-∞`, takes the
  maximum of what is left, and asks separately whether any term was above `Z` (`masked_gated`).  They agree because
  `Z < max_k p k` holds exactly when some `p k` is above `Z`, and then the terms thrown away (all `≤ Z`) cannot be the
  maximum.  Only the order of the extended reals is used: no sum is reassociated, so the infinities need no care.
-/
import Idealize.ShloMosaic.PureOps.Ideal
import Idealize.ShloMosaic.PureOps.Reduce
import Idealize.ShloMosaic.Lib.ValueIdx
import Mathlib.Data.Finset.Fold

noncomputable section

namespace Cert.Tropical

open Idealize.ShloMosaic

variable {ι κ : Type} [Fintype ι] [Fintype κ]

/-- The maximum of a finite family from `-∞`. -/
def rowMax (p : ι → EReal) : EReal := (Finset.univ : Finset ι).fold max ⊥ p

/-- The gated tropical value: the row maximum plus the bias when the maximum is above the threshold, else the threshold. -/
def gated (Z : EReal) (p : ι → EReal) (b : EReal) : EReal :=
  if Z < rowMax p then rowMax p + b else Z

theorem le_rowMax (p : ι → EReal) (k : ι) : p k ≤ rowMax p :=
  (Finset.le_fold_max _).2 (Or.inr ⟨k, Finset.mem_univ k, le_rfl⟩)

theorem rowMax_le (p : ι → EReal) (c : EReal) (h : ∀ k, p k ≤ c) : rowMax p ≤ c :=
  (Finset.fold_max_le _).2 ⟨bot_le, fun k _ => h k⟩

/-- The maximum is above `Z` exactly when some term is. -/
theorem lt_rowMax_iff (p : ι → EReal) (Z : EReal) : Z < rowMax p ↔ ∃ k, Z < p k := by
  unfold rowMax
  rw [Finset.lt_fold_max]
  constructor
  · rintro (h | ⟨k, _, hk⟩)
    · exact absurd h not_lt_bot
    · exact ⟨k, hk⟩
  · rintro ⟨k, hk⟩
    exact Or.inr ⟨k, Finset.mem_univ k, hk⟩

/-- A maximum taken over two parts of the index set that together cover it, joined by `max` (and once more with
    `-∞`, as an accumulator started there does), is the maximum over the whole set. -/
theorem max_halves (p : ι → EReal) (lo hi : κ → ι) (hcov : ∀ k : ι, (∃ a, lo a = k) ∨ (∃ a, hi a = k)) :
    max (max ⊥ (rowMax (p ∘ lo))) (rowMax (p ∘ hi)) = rowMax p := by
  apply le_antisymm
  · exact max_le (max_le bot_le (rowMax_le _ _ fun a => le_rowMax p (lo a))) (rowMax_le _ _ fun a => le_rowMax p (hi a))
  · refine rowMax_le _ _ fun k => ?_
    rcases hcov k with ⟨a, rfl⟩ | ⟨a, rfl⟩
    · exact le_max_of_le_left (le_max_of_le_right (le_rowMax (p ∘ lo) a))
    · exact le_max_of_le_right (le_rowMax (p ∘ hi) a)

/-! ## The comparison bit and the choice on it -/

/-- The strict comparison's bit is set exactly when the order says so. -/
theorem cmp_ogt_eq_one_iff (x y : EReal) : Ideal.cmp .ogt x y = 1#1 ↔ y < x := by
  show BitVec.ofBool (decide (y < x)) = 1#1 ↔ y < x
  by_cases h : y < x
  · rw [decide_eq_true h]; exact ⟨fun _ => h, fun _ => rfl⟩
  · rw [decide_eq_false h]; exact ⟨fun e => absurd e (by decide), fun h' => absurd h' h⟩

/-- An `or` of two bits is set exactly when one of them is. -/
theorem ori_eq_one_iff (y z : BitVec 1) : IntOp.ori y z = 1#1 ↔ y = 1#1 ∨ z = 1#1 := by
  have hy : y = 0#1 ∨ y = 1#1 := by
    by_cases h : y = 1#1
    · exact Or.inr h
    · exact Or.inl (ValueIdx.eq_zero_of_ne_one h)
  have hz : z = 0#1 ∨ z = 1#1 := by
    by_cases h : z = 1#1
    · exact Or.inr h
    · exact Or.inl (ValueIdx.eq_zero_of_ne_one h)
  rcases hy with rfl | rfl <;> rcases hz with rfl | rfl <;> decide

/-- The `or` of a finite family of bits from the clear bit is set exactly when some member is. -/
theorem fold_ori_eq_one_iff [DecidableEq ι] (s : Finset ι) (f : ι → BitVec 1) :
    s.fold IntOp.ori 0#1 f = 1#1 ↔ ∃ k ∈ s, f k = 1#1 := by
  induction s using Finset.induction_on with
  | empty =>
    rw [Finset.fold_empty]
    exact ⟨fun h => absurd h (by decide), fun ⟨k, hk, _⟩ => absurd hk (by simp)⟩
  | insert a s ha ih =>
    rw [Finset.fold_insert ha, ori_eq_one_iff, ih]
    constructor
    · rintro (h | ⟨k, hk, hfk⟩)
      · exact ⟨a, Finset.mem_insert_self a s, h⟩
      · exact ⟨k, Finset.mem_insert_of_mem hk, hfk⟩
    · rintro ⟨k, hk, hfk⟩
      rcases Finset.mem_insert.1 hk with rfl | hk
      · exact Or.inl hfk
      · exact Or.inr ⟨k, hk, hfk⟩

/-! ## The two programs' scalars -/

/-- The maximum compared with the threshold after it was taken: the gated value. -/
theorem split_gated (Z M b : EReal) (p : ι → EReal) (hM : M = rowMax p) :
    Scalar.select (Ideal.cmp .ogt M Z) (M + b) Z = gated Z p b := by
  subst hM
  unfold gated Scalar.select
  by_cases h : Z < rowMax p
  · exact (if_pos ((cmp_ogt_eq_one_iff _ _).2 h)).trans (if_pos h).symm
  · exact (if_neg (fun e => h ((cmp_ogt_eq_one_iff _ _).1 e))).trans (if_neg h).symm

/-- When the maximum is above the threshold, the terms not above it may be replaced by `-∞` without changing it. -/
theorem masked_max (Z : EReal) (p : ι → EReal) (h : Z < rowMax p) :
    (Finset.univ : Finset ι).fold max ⊥ (fun k => Scalar.select (Ideal.cmp .ogt (p k) Z) (p k) ⊥) = rowMax p := by
  obtain ⟨k0, hk0⟩ := (lt_rowMax_iff p Z).1 h
  have term : ∀ k, Z < p k → Scalar.select (Ideal.cmp .ogt (p k) Z) (p k) (⊥ : EReal) = p k :=
    fun k hk => if_pos ((cmp_ogt_eq_one_iff _ _).2 hk)
  apply le_antisymm
  · refine (Finset.fold_max_le _).2 ⟨bot_le, fun k _ => ?_⟩
    unfold Scalar.select
    split_ifs
    · exact le_rowMax p k
    · exact bot_le
  · refine rowMax_le _ _ fun k => ?_
    by_cases hk : Z < p k
    · exact (Finset.le_fold_max _).2 (Or.inr ⟨k, Finset.mem_univ k, (term k hk).ge⟩)
    · refine (Finset.le_fold_max _).2 (Or.inr ⟨k0, Finset.mem_univ k0, ?_⟩)
      rw [term k0 hk0]
      exact (not_lt.1 hk).trans hk0.le

/-- The masked maximum, gated by "some term is above the threshold": the gated value. -/
theorem masked_gated [DecidableEq ι] (Z : EReal) (p : ι → EReal) (b : EReal) :
    Scalar.select ((Finset.univ : Finset ι).fold IntOp.ori 0#1 (fun k => Ideal.cmp .ogt (p k) Z))
        ((Finset.univ : Finset ι).fold max ⊥ (fun k => Scalar.select (Ideal.cmp .ogt (p k) Z) (p k) ⊥) + b) Z
      = gated Z p b := by
  have hany : (Finset.univ : Finset ι).fold IntOp.ori 0#1 (fun k => Ideal.cmp .ogt (p k) Z) = 1#1 ↔ Z < rowMax p := by
    rw [fold_ori_eq_one_iff, lt_rowMax_iff]
    constructor
    · rintro ⟨k, _, hk⟩; exact ⟨k, (cmp_ogt_eq_one_iff _ _).1 hk⟩
    · rintro ⟨k, hk⟩; exact ⟨k, Finset.mem_univ k, (cmp_ogt_eq_one_iff _ _).2 hk⟩
  unfold gated
  by_cases h : Z < rowMax p
  · rw [if_pos h, masked_max Z p h]
    exact if_pos (hany.2 h)
  · rw [if_neg h]
    exact if_neg (fun e => h (hany.1 e))

/-! ## The whole-array function both programs compute -/

open ValueIdx

/-- The tropical zero both programs compare with and answer: the float32 number nearest to `-10^38`, kept as its
    pattern (the same pattern on both sides, so its value is never needed). -/
def Z : EReal := Ideal.ofBits .f32 0xFE967699#32

/-- The pattern the maxima start from is `-∞`. -/
theorem negInf : Ideal.ofBits .f32 0xFF800000#32 = (⊥ : EReal) := by simp [Ideal.ofBits, Ideal.ieee]

/-- Entry `(i, j)` of the result: the gated tropical product of row `i` of `x` with row `j` of `w`, biased by `b j`. -/
def G (x : (⟨2, ![4096, 256]⟩ : Shape).Idx → EReal) (w : (⟨2, ![256, 256]⟩ : Shape).Idx → EReal)
    (b : (⟨1, ![256]⟩ : Shape).Idx → EReal) : (⟨2, ![4096, 256]⟩ : Shape).Idx → EReal :=
  fun i => gated Z (fun k : Fin 256 => x (ix2 (i 0) k) + w (ix2 (i 1) k)) (b (ix1 (i 1)))

end Cert.Tropical

end
-- ==== Proof.KernelBlock.lean ====
/-
  The kernel's block, read entry by entry.

  One grid point loads a block `P0` of 256 rows of `x`, the whole of `w` as `P1`, and the bias row `P2`, and stores a
  256 × 256 block.  Its entry `(p, q)` is built from the sums `P0[p,k] + P1[q,k]`: the columns are taken in two halves of
  128 lanes, each half's maximum is a lane reduction from `-∞`, the two are joined by `max` into an accumulator that
  started at `-∞`, and the result is compared with the tropical zero: above it the bias `P2[0,q]` is added, otherwise the
  tropical zero is stored.  With `max_halves` and `split_gated` (Tropical.lean) that entry is the gated tropical value
  of the whole row pair.
-/
import proofs.«145057_j20332375179466_2_alg».proof.Proof.Gen.KernelIdeal.Value
import proofs.«145057_j20332375179466_2_alg».proof.Proof.Tropical
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Tropical

variable (P0 P1 : Vec Ideal S256x256 .f32) (P2 : Vec Ideal S1x256 .f32)

/-- The sums of one half of the columns (lanes `o … o + 127`) as the body builds them: both blocks sliced to the half,
    the `x` half given a unit axis in the middle and the `w` half one in front, both broadcast to (row of x, row of w, lane). -/
abbrev halfSums (o : Nat) (hs : S256x256.Slices ![0, o] S256x128) : FVec Ideal S256x256x128 .f32 :=
  addf (broadcastTo S256x256x128 (shapeCast S256x1x128 (extractStridedSlice S256x128 ![0, o] P0 hs) shapeCasts_S256x128_S256x1x128) broadcasts_S256x1x128_S256x256x128)
    (broadcastTo S256x256x128 (shapeCast S1x256x128 (extractStridedSlice S256x128 ![0, o] P1 hs) shapeCasts_S256x128_S1x256x128) broadcasts_S1x256x128_S256x256x128)

/-- At `(p, q, k)` the half's sum is `P0[p, o + k] + P1[q, o + k]`. -/
theorem halfSums_apply (o : Nat) (ho : o + 128 ≤ 256) (hs : S256x256.Slices ![0, o] S256x128) (p q : Fin 256) (k : Fin 128) :
    halfSums P0 P1 o hs (ix3 p q k) = P0 (ix2 p ⟨o + k.val, by omega⟩) + P1 (ix2 q ⟨o + k.val, by omega⟩) := by
  show (broadcastTo S256x256x128 (shapeCast S256x1x128 (extractStridedSlice S256x128 ![0, o] P0 hs) shapeCasts_S256x128_S256x1x128) broadcasts_S256x1x128_S256x256x128) (ix3 p q k)
      + (broadcastTo S256x256x128 (shapeCast S1x256x128 (extractStridedSlice S256x128 ![0, o] P1 hs) shapeCasts_S256x128_S1x256x128) broadcasts_S1x256x128_S256x256x128) (ix3 p q k) = _
  congr 1
  · refine (broadcastTo_apply _ broadcasts_S256x1x128_S256x256x128 (ix3 p q k) (ix3 p (0 : Fin 1) k) (fun a => ?_)).trans ?_
    · match a with
      | ⟨0, _⟩ => show p.val = if (256 : Nat) = 1 then 0 else p.val; rw [if_neg (by decide)]
      | ⟨1, _⟩ => show 0 = if (1 : Nat) = 1 then 0 else q.val; rw [if_pos rfl]
      | ⟨2, _⟩ => show k.val = if (128 : Nat) = 1 then 0 else k.val; rw [if_neg (by decide)]
    refine (shapeCast_apply _ shapeCasts_S256x128_S256x1x128 (ix3 p (0 : Fin 1) k) (ix2 p k) ?_).trans ?_
    · rw [Shape.rowMajor_val_two, Shape.rowMajor_val_three]
      show p.val * 128 + k.val = (p.val * 1 + 0) * 128 + k.val
      omega
    exact extractStridedSlice_apply _ P0 hs (ix2 p k) (ix2 p ⟨o + k.val, by omega⟩) (fun a => match a with
      | ⟨0, _⟩ => by show p.val = 0 + p.val; omega
      | ⟨1, _⟩ => by show o + k.val = o + k.val; rfl)
  · refine (broadcastTo_apply _ broadcasts_S1x256x128_S256x256x128 (ix3 p q k) (ix3 (0 : Fin 1) q k) (fun a => ?_)).trans ?_
    · match a with
      | ⟨0, _⟩ => show 0 = if (1 : Nat) = 1 then 0 else p.val; rw [if_pos rfl]
      | ⟨1, _⟩ => show q.val = if (256 : Nat) = 1 then 0 else q.val; rw [if_neg (by decide)]
      | ⟨2, _⟩ => show k.val = if (128 : Nat) = 1 then 0 else k.val; rw [if_neg (by decide)]
    refine (shapeCast_apply _ shapeCasts_S256x128_S1x256x128 (ix3 (0 : Fin 1) q k) (ix2 q k) ?_).trans ?_
    · rw [Shape.rowMajor_val_two, Shape.rowMajor_val_three]
      show q.val * 128 + k.val = (0 * 256 + q.val) * 128 + k.val
      omega
    exact extractStridedSlice_apply _ P1 hs (ix2 q k) (ix2 q ⟨o + k.val, by omega⟩) (fun a => match a with
      | ⟨0, _⟩ => by show q.val = 0 + q.val; omega
      | ⟨1, _⟩ => by show o + k.val = o + k.val; rfl)

/-- The lane maximum of a half at `(p, q)`: the maximum over its 128 lanes of the sums, from `-∞`. -/
theorem halfMax (o : Nat) (ho : o + 128 ≤ 256) (hs : S256x256.Slices ![0, o] S256x128) (p q : Fin 256) :
    multiReduction .maximumf [2] S256x256 (halfSums P0 P1 o hs) 0xFF800000#32 reduces_S256x256x128_S256x256 (.inl rfl) rfl (ix2 p q)
      = rowMax (fun k : Fin 128 => P0 (ix2 p ⟨o + k.val, by omega⟩) + P1 (ix2 q ⟨o + k.val, by omega⟩)) := by
  refine (Ideal.multiReduction_maximumf_single (halfSums P0 P1 o hs) 0xFF800000#32 reduces_S256x256x128_S256x256 (.inl rfl) rfl (ix2 p q)).trans ?_
  have e : (halfSums P0 P1 o hs ∘ reduces_S256x256x128_S256x256.lift (ix2 p q))
      = fun k : Fin 128 => P0 (ix2 p ⟨o + k.val, by omega⟩) + P1 (ix2 q ⟨o + k.val, by omega⟩) := funext fun k => by
    show halfSums P0 P1 o hs (reduces_S256x256x128_S256x256.lift (ix2 p q) k) = _
    rw [show reduces_S256x256x128_S256x256.lift (ix2 p q) k = ix3 p q k from
      funext fun c => Fin.ext (match c with | ⟨0, _⟩ => rfl | ⟨1, _⟩ => rfl | ⟨2, _⟩ => rfl)]
    exact halfSums_apply P0 P1 o ho hs p q k
  rw [e]
  show (Finset.univ : Finset (Fin 128)).fold max (Ideal.ofBits .f32 0xFF800000#32) _ = _
  rw [negInf]
  rfl

/-- Entry `(p, q)` of the block the body stores is the gated tropical value of row `p` of `P0` and row `q` of `P1`,
    biased by `P2[0, q]`. -/
theorem block_apply (p q : Fin 256) :
    Value.E3 (F := Ideal) P0 P1 P2 (ix2 p q)
      = gated Z (fun k : Fin 256 => P0 (ix2 p k) + P1 (ix2 q k)) (P2 (ix2 (0 : Fin 1) q)) := by
  have h0 : Value.ix3_0 (ix2 p q) = ix2 p q := funext fun a => Fin.ext (match a with | ⟨0, _⟩ => rfl | ⟨1, _⟩ => rfl)
  have h1 : Value.ix3_1 (ix2 p q) = ix2 p q := funext fun a => Fin.ext (match a with | ⟨0, _⟩ => rfl | ⟨1, _⟩ => rfl)
  have h2 : Value.ix3_2 (ix2 p q) = ix2 p q := funext fun a => Fin.ext (match a with | ⟨0, _⟩ => rfl | ⟨1, _⟩ => rfl)
  have h3 : Value.ix3_3 (ix2 p q) = ix2 p q := funext fun a => Fin.ext (match a with | ⟨0, _⟩ => rfl | ⟨1, _⟩ => rfl)
  have h4 : Value.ix3_4 (ix2 p q) = ix2 (0 : Fin 1) q := funext fun a => Fin.ext (match a with | ⟨0, _⟩ => rfl | ⟨1, _⟩ => rfl)
  -- the two halves of the columns, and that they cover them
  let s : Fin 256 → EReal := fun k => P0 (ix2 p k) + P1 (ix2 q k)
  let lo : Fin 128 → Fin 256 := fun k => ⟨0 + k.val, by omega⟩
  let hi : Fin 128 → Fin 256 := fun k => ⟨128 + k.val, by omega⟩
  have hcov : ∀ k : Fin 256, (∃ a, lo a = k) ∨ (∃ a, hi a = k) := fun k => by
    by_cases hk : k.val < 128
    · exact Or.inl ⟨⟨k.val, hk⟩, Fin.ext (by show 0 + k.val = k.val; omega)⟩
    · exact Or.inr ⟨⟨k.val - 128, by omega⟩, Fin.ext (by show 128 + (k.val - 128) = k.val; omega)⟩
  have hM : FloatOps.maximumf (FloatOps.maximumf (Scalar.ofBits (F := Ideal) .f32 0xFF800000#32) (rowMax (s ∘ lo))) (rowMax (s ∘ hi)) = rowMax s := by
    show max (max (Ideal.ofBits .f32 0xFF800000#32) _) _ = _
    rw [negInf]
    exact max_halves s lo hi hcov
  dsimp only [Value.E3]
  rw [h0, h1, h2, h3, h4]
  rw [halfMax P0 P1 0 (by omega) slices_S256x256_o0_0_S256x128 p q, halfMax P0 P1 128 (by omega) slices_S256x256_o0_128_S256x128 p q]
  exact split_gated Z _ _ s hM

end Cert.KernelIdeal.Block

end
-- ==== Proof.KernelArray.lean ====
/-
  From the kernel's blocks to its result array.

  The grid has 16 points; point `t` stages rows `256 t … 256 t + 255` of `x`, the whole of `w` and the bias (argument 2
  reshaped to one row by the host before the region), and writes back rows `256 t … 256 t + 255` of the result.  So
  what point `t` writes back is block `t` of ONE array `G x w b` — entry `(256 t + p, q)` depends on row `256 t + p` of `x`,
  row `q` of `w` and `b[q]` only —, the 16 blocks cover the 4096 rows (row `r` lies in block `r / 256`), and the result
  array after the run is `G x w b`.
-/
import proofs.«145057_j20332375179466_2_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Tropical
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output's staging buffer from loaded blocks `x0`, `x1`, `x2`, entry by entry: its one
    store covers the buffer, the loads are of whole buffers, and the stored entry is the gated tropical value. -/
theorem out_apply (x0 x1 : Vec Ideal S256x256 .f32) (x2 : Vec Ideal S1x256 .f32) (p q : Fin 256) :
    out0_3 x0 x1 x2 (ix2 p q) = gated Z (fun k : Fin 256 => x0 (ix2 p k) + x1 (ix2 q k)) (x2 (ix2 (0 : Fin 1) q)) := by
  unfold out0_3
  simp only [View.ld_unit_zero (S := S256x256) hz, View.ld_unit_zero (S := S1x256) hz]
  rw [Value.canon3_eq]
  exact Block.block_apply x0 x1 x2 p q

/-- Entry `i` of `G` from the blocks' entries it is made of: the gated value only sees row `i 0` of `x`, row `i 1` of `w`
    and `b (i 1)`, so blocks that hold those rows and that bias entry give the same value. -/
theorem G_congr (x : (⟨2, ![4096, 256]⟩ : Shape).Idx → EReal) (w : (⟨2, ![256, 256]⟩ : Shape).Idx → EReal)
    (b : (⟨1, ![256]⟩ : Shape).Idx → EReal) (x0 x1 : Vec Ideal S256x256 .f32) (x2 : Vec Ideal S1x256 .f32)
    (p q : Fin 256) (i : (⟨2, ![4096, 256]⟩ : Shape).Idx)
    (h0 : ∀ k : Fin 256, x0 (ix2 p k) = x (ix2 (i 0) k)) (h1 : ∀ k : Fin 256, x1 (ix2 q k) = w (ix2 (i 1) k))
    (h2 : x2 (ix2 (0 : Fin 1) q) = b (ix1 (i 1))) :
    gated Z (fun k : Fin 256 => x0 (ix2 p k) + x1 (ix2 q k)) (x2 (ix2 (0 : Fin 1) q)) = G x w b i := by
  unfold G
  rw [h2]
  congr 1
  funext k
  rw [h0, h1]

/-- The printed index maps over the grid: the `x` window and the output window are at block row `t`, the `w` and bias
    windows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias row as the region finds it: argument 2, reshaped by the host to one row. -/
theorem V_bias (c : Dev nD) :
    (V m c main_v0 : S1x256.Idx → EReal) = shapeCast S1x256 (m ((c : Thread nD τ).loc main_arg2) : S256.Idx → EReal) shapeCasts_S256_S1x256 := by
  dsimp only [Gen.V, Gen.hostOps0]
  after_results
  rfl

/-- WHAT POINT `t` WRITES BACK is block `t` of `G` of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  obtain ⟨e00, e01, e10, e11, e20, e21, e30, e31⟩ := idx_facts t
  funext j
  obtain ⟨p, q, rfl⟩ : ∃ (p q : Fin 256), j = ix2 p q := ⟨j 0, j 1, eq_ix2 j⟩
  show out0_3 (iblk m c 0 t) (iblk m c 1 t) (iblk m c 2 t) (ix2 p q)
      = G (m ((c : Thread nD τ).loc main_arg0)) (m ((c : Thread nD τ).loc main_arg1)) (m ((c : Thread nD τ).loc main_arg2))
          (((cfg0.win 3).blk t).view.emb (ix2 p q))
  refine (out_apply (iblk m c 0 t) (iblk m c 1 t) (iblk m c 2 t) p q).trans ?_
  -- the array index under entry `(p, q)` of block `t`: row `256 t + p`, column `q`
  have hi0 : ((((cfg0.win 3).blk t).view.emb (ix2 p q)) 0).val = t.val * 256 + p.val := by
    show win0_3.index t (0 : Fin 2) * 256 + 1 * p.val = _
    rw [e30]; omega
  have hi1 : ((((cfg0.win 3).blk t).view.emb (ix2 p q)) 1).val = q.val := by
    show win0_3.index t (1 : Fin 2) * 256 + 1 * q.val = _
    rw [e31]; omega
  refine G_congr _ _ _ (iblk m c 0 t) (iblk m c 1 t) (iblk m c 2 t) p q _ (fun k => ?_) (fun k => ?_) ?_
  · -- the `x` block's row `p` is row `256 t + p` of `x`
    show V m c main_arg0 (((cfg0.win 0).blk t).view.emb (ix2 p k)) = _
    rw [V_main_arg0]
    refine congrArg (m ((c : Thread nD τ).loc main_arg0) : S4096x256.Idx → EReal) (funext fun a => Fin.ext ?_)
    match a with
    | ⟨0, _⟩ =>
      show win0_0.index t (0 : Fin 2) * 256 + 1 * p.val = ((((cfg0.win 3).blk t).view.emb (ix2 p q)) 0).val
      rw [hi0, e00]; omega
    | ⟨1, _⟩ =>
      show win0_0.index t (1 : Fin 2) * 256 + 1 * k.val = k.val
      rw [e01]; omega
  · -- the `w` block is the whole of `w`
    show V m c main_arg1 (((cfg0.win 1).blk t).view.emb (ix2 q k)) = _
    rw [V_main_arg1]
    refine congrArg (m ((c : Thread nD τ).loc main_arg1) : S256x256.Idx → EReal) (funext fun a => Fin.ext ?_)
    match a with
    | ⟨0, _⟩ =>
      show win0_1.index t (0 : Fin 2) * 256 + 1 * q.val = ((((cfg0.win 3).blk t).view.emb (ix2 p q)) 1).val
      rw [hi1, e10]; omega
    | ⟨1, _⟩ =>
      show win0_1.index t (1 : Fin 2) * 256 + 1 * k.val = k.val
      rw [e11]; omega
  · -- the bias block is the one row the host made of the bias
    show (V m c main_v0 : S1x256.Idx → EReal) (((cfg0.win 2).blk t).view.emb (ix2 (0 : Fin 1) q)) = _
    rw [V_bias]
    refine shapeCast_apply _ shapeCasts_S256_S1x256 _ (ix1 ((((cfg0.win 3).blk t).view.emb (ix2 p q)) 1)) ?_
    rw [Shape.rowMajor_val_one, Shape.rowMajor_val_two]
    show ((((cfg0.win 3).blk t).view.emb (ix2 p q)) 1).val
        = (win0_2.index t (0 : Fin 2) * 1 + 1 * 0) * 256 + (win0_2.index t (1 : Fin 2) * 256 + 1 * q.val)
    rw [hi1, e20, e21]; omega

/-- An index of the result array is in point `t`'s block iff each coordinate is in the block's range on its axis. -/
theorem mem_blk (t : Fin cfg0.N) (i : S4096x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v1).slice (win0_3.rect t)).set ↔ _
  rw [View.set_slice_whole, Rect.mem_set_unit]
  exact Iff.rfl

/-- The 16 blocks cover the array: row `r` lies in the block of point `r / 256`. -/
theorem cover (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  have hN : (i 0).val / 256 < cfg0.N := by
    show (i 0).val / 256 < grid0.N
    rw [N_0]; omega
  obtain ⟨-, -, -, -, -, -, e30, e31⟩ := idx_facts ⟨(i 0).val / 256, hN⟩
  refine ⟨⟨(i 0).val / 256, hN⟩, flush0_3 _, ?_⟩
  rw [mem_blk]
  intro a
  match a with
  | ⟨0, _⟩ =>
    show win0_3.index ⟨(i 0).val / 256, hN⟩ (0 : Fin 2) * 256 ≤ (i 0).val ∧ (i 0).val < win0_3.index ⟨(i 0).val / 256, hN⟩ (0 : Fin 2) * 256 + 256
    rw [e30]
    show (i 0).val / 256 * 256 ≤ (i 0).val ∧ (i 0).val < (i 0).val / 256 * 256 + 256
    omega
  | ⟨1, _⟩ =>
    show win0_3.index ⟨(i 0).val / 256, hN⟩ (1 : Fin 2) * 256 ≤ (i 1).val ∧ (i 1).val < win0_3.index ⟨(i 0).val / 256, hN⟩ (1 : Fin 2) * 256 + 256
    rw [e31]; omega

/-- THE RESULT ARRAY after the run is `G` of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v1)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRun.lean ====
/-
  The reference program's run, read back.

  The reference computes, for every row `i` of `x` and every row `j` of `weight`, the tropical (max-plus) product
  `max_k (x[i,k] + weight[j,k])` restricted to the terms above the tropical zero `Z`, adds `bias[j]` when at least one
  term is above `Z`, and answers `Z` itself otherwise.  Its @main is a straight line of twenty-one host operations
  (the two `jnp.where` calls stand inlined at their call sites).  This module lists them, shows that @main is that
  line, and reads the result buffer after the line as ONE term `refOut` of the three argument arrays:
  the mask `x[i,k] + w[j,k] > Z`, its `or` over `k`, the masked terms' maximum over `k` from `-∞`, the bias added,
  and the final choice between that sum and `Z`.
-/
import proofs.«145057_j20332375179466_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of the argument arrays -/

/-- `x[i,k] + w[j,k]` as a rank-3 array over `(i, j, k)`. -/
def sums (x : (⟨S4096x256, .f32⟩ : BufTy).Contents (Elt F)) (w : (⟨S256x256, .f32⟩ : BufTy).Contents (Elt F)) :
    (⟨S4096x256x256, .f32⟩ : BufTy).Contents (Elt F) :=
  addf (broadcastInDim S4096x256x256 ![0, 1, 2] bcast_S4096x1x256_S4096x256x256_0_1_2 (broadcastInDim S4096x1x256 ![0, 2] bcast_S4096x256_S4096x1x256_0_2 x))
    (broadcastInDim S4096x256x256 ![0, 1, 2] bcast_S1x256x256_S4096x256x256_0_1_2 (broadcastInDim S1x256x256 ![1, 2] bcast_S256x256_S1x256x256_1_2 w))

/-- The mask: which sums lie strictly above the tropical zero. -/
def above (x : (⟨S4096x256, .f32⟩ : BufTy).Contents (Elt F)) (w : (⟨S256x256, .f32⟩ : BufTy).Contents (Elt F)) :
    (⟨S4096x256x256, .i1⟩ : BufTy).Contents (Elt F) :=
  cmpf .ogt (sums x w) (broadcastInDim S4096x256x256 ![] bcast_S_S4096x256x256 (constant S_ .f32 0xFE967699#32))

/-- The sums with the ones not above the tropical zero replaced by `-∞`. -/
def masked (x : (⟨S4096x256, .f32⟩ : BufTy).Contents (Elt F)) (w : (⟨S256x256, .f32⟩ : BufTy).Contents (Elt F)) :
    (⟨S4096x256x256, .f32⟩ : BufTy).Contents (Elt F) :=
  select (above x w) (sums x w) (broadcastInDim S4096x256x256 ![] bcast_S_S4096x256x256 (id (constant S_ .f32 0xFF800000#32)))

/-- The reference's result: where some sum of the row pair is above the tropical zero, the maximum of those plus the bias;
    elsewhere the tropical zero. -/
def refOut (x : (⟨S4096x256, .f32⟩ : BufTy).Contents (Elt F)) (w : (⟨S256x256, .f32⟩ : BufTy).Contents (Elt F))
    (b : (⟨S256, .f32⟩ : BufTy).Contents (Elt F)) : (⟨S4096x256, .f32⟩ : BufTy).Contents (Elt F) :=
  select (Host.reduce IntOp.ori (above x w) (constantI S_ 1 0#1) reducesTo_S4096x256x256_S4096x256_d2 h_S_)
    (addf (Host.reduce FloatOps.maximumf (masked x w) (constant S_ .f32 0xFF800000#32) reducesTo_S4096x256x256_S4096x256_d2 h_S_)
      (broadcastInDim S4096x256 ![0, 1] bcast_S1x256_S4096x256_0_1 (broadcastInDim S1x256 ![1] bcast_S256_S1x256_1 b)))
    (broadcastInDim S4096x256 ![] bcast_S_S4096x256 (constant S_ .f32 0xFE967699#32))

/-! ## @main as a line of operations -/

/-- @main's twenty-one operations, in order; the three operations of the first `where` and the two of the second stand
    where they are called, over the calls' own buffers. -/
abbrev ops : List (HloOp τ sig (Elt F)) :=
  [ nullary main_cst (constant S_ .f32 0xFE967699#32),
    unary main_arg0 main_v0 (broadcastInDim S4096x1x256 ![0, 2] bcast_S4096x256_S4096x1x256_0_2 : (⟨S4096x256, .f32⟩ : BufTy).Contents (Elt F) → (⟨S4096x1x256, .f32⟩ : BufTy).Contents (Elt F)),
    unary main_arg1 main_v1 (broadcastInDim S1x256x256 ![1, 2] bcast_S256x256_S1x256x256_1_2 : (⟨S256x256, .f32⟩ : BufTy).Contents (Elt F) → (⟨S1x256x256, .f32⟩ : BufTy).Contents (Elt F)),
    unary main_v0 main_v2 (broadcastInDim S4096x256x256 ![0, 1, 2] bcast_S4096x1x256_S4096x256x256_0_1_2 : (⟨S4096x1x256, .f32⟩ : BufTy).Contents (Elt F) → (⟨S4096x256x256, .f32⟩ : BufTy).Contents (Elt F)),
    unary main_v1 main_v3 (broadcastInDim S4096x256x256 ![0, 1, 2] bcast_S1x256x256_S4096x256x256_0_1_2 : (⟨S1x256x256, .f32⟩ : BufTy).Contents (Elt F) → (⟨S4096x256x256, .f32⟩ : BufTy).Contents (Elt F)),
    binary main_v2 main_v3 main_v4 (addf : (⟨S4096x256x256, .f32⟩ : BufTy).Contents (Elt F) → (⟨S4096x256x256, .f32⟩ : BufTy).Contents (Elt F) → (⟨S4096x256x256, .f32⟩ : BufTy).Contents (Elt F)),
    unary main_cst main_v5 (broadcastInDim S4096x256x256 ![] bcast_S_S4096x256x256 : (⟨S_, .f32⟩ : BufTy).Contents (Elt F) → (⟨S4096x256x256, .f32⟩ : BufTy).Contents (Elt F)),
    binary main_v4 main_v5 main_v6 (cmpf .ogt : (⟨S4096x256x256, .f32⟩ : BufTy).Contents (Elt F) → (⟨S4096x256x256, .f32⟩ : BufTy).Contents (Elt F) → (⟨S4096x256x256, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4096x256x256, .f32⟩) main_call0_v1) (broadcastInDim S4096x256x256 ![] bcast_S_S4096x256x256),
    TRef.ternary (TRef.of (T := ⟨S4096x256x256, .i1⟩) main_v6) (TRef.of (T := ⟨S4096x256x256, .f32⟩) main_v4) (TRef.of (T := ⟨S4096x256x256, .f32⟩) main_call0_v1) (TRef.of (T := ⟨S4096x256x256, .f32⟩) main_v7) select,
    nullary main_cst_1 (constant S_ .f32 0xFF800000#32),
    binary main_v7 main_cst_1 main_v8 ((fun x v => Host.reduce FloatOps.maximumf x v reducesTo_S4096x256x256_S4096x256_d2 h_S_) : (⟨S4096x256x256, .f32⟩ : BufTy).Contents (Elt F) → (⟨S_, .f32⟩ : BufTy).Contents (Elt F) → (⟨S4096x256, .f32⟩ : BufTy).Contents (Elt F)),
    nullary main_c (constantI S_ 1 0#1),
    binary main_v6 main_c main_v9 ((fun x v => Host.reduce IntOp.ori x v reducesTo_S4096x256x256_S4096x256_d2 h_S_) : (⟨S4096x256x256, .i1⟩ : BufTy).Contents (Elt F) → (⟨S_, .i1⟩ : BufTy).Contents (Elt F) → (⟨S4096x256, .i1⟩ : BufTy).Contents (Elt F)),
    unary main_arg2 main_v10 (broadcastInDim S1x256 ![1] bcast_S256_S1x256_1 : (⟨S256, .f32⟩ : BufTy).Contents (Elt F) → (⟨S1x256, .f32⟩ : BufTy).Contents (Elt F)),
    unary main_v10 main_v11 (broadcastInDim S4096x256 ![0, 1] bcast_S1x256_S4096x256_0_1 : (⟨S1x256, .f32⟩ : BufTy).Contents (Elt F) → (⟨S4096x256, .f32⟩ : BufTy).Contents (Elt F)),
    binary main_v8 main_v11 main_v12 (addf : (⟨S4096x256, .f32⟩ : BufTy).Contents (Elt F) → (⟨S4096x256, .f32⟩ : BufTy).Contents (Elt F) → (⟨S4096x256, .f32⟩ : BufTy).Contents (Elt F)),
    TRef.unary (TRef.of (T := ⟨S_, .f32⟩) main_cst) (TRef.of (T := ⟨S4096x256, .f32⟩) main_call1_v0) (broadcastInDim S4096x256 ![] bcast_S_S4096x256),
    TRef.ternary (TRef.of (T := ⟨S4096x256, .i1⟩) main_v9) (TRef.of (T := ⟨S4096x256, .f32⟩) main_v12) (TRef.of (T := ⟨S4096x256, .f32⟩) main_call1_v0) (TRef.of (T := ⟨S4096x256, .f32⟩) main_v13) select ]

/-- @main is that line: the two `where` bodies unfold at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., binary_bufs_sub .., unary_bufs_sub .., unary_bufs_sub .., binary_bufs_sub .., unary_bufs_sub .., ternary_bufs_sub ..⟩

/-! ## Typed references carry contents unchanged

A called function's operations name their buffers through typed references, and read or write a buffer's contents
through a transport along the equation "the buffer's type is the value's type".  At a literal buffer that equation holds
by computation, so the transport is the identity; stated once per buffer that the two calls read or write. -/

section Transport
variable {T : BufTy}

theorem ofBuf_toBuf (r : TRef sig T) (v : T.Contents (Elt F)) : r.ofBuf (r.toBuf v) = v := by
  obtain ⟨r, h, h2, h3⟩ := r
  subst h
  rfl

theorem toBuf_v13 (h1 h2 h3) (v : (⟨S4096x256, .f32⟩ : BufTy).Contents (Elt F)) :
    (TRef.of (T := ⟨S4096x256, .f32⟩) main_v13 h1 h2 h3).toBuf v = v := rfl
theorem ofBuf_v9 (h1 h2 h3) (v : (⟨S4096x256, .i1⟩ : BufTy).Contents (Elt F)) :
    (TRef.of (T := ⟨S4096x256, .i1⟩) main_v9 h1 h2 h3).ofBuf v = v := rfl
theorem ofBuf_v12 (h1 h2 h3) (v : (⟨S4096x256, .f32⟩ : BufTy).Contents (Elt F)) :
    (TRef.of (T := ⟨S4096x256, .f32⟩) main_v12 h1 h2 h3).ofBuf v = v := rfl
theorem toBuf_v7 (h1 h2 h3) (v : (⟨S4096x256x256, .f32⟩ : BufTy).Contents (Elt F)) :
    (TRef.of (T := ⟨S4096x256x256, .f32⟩) main_v7 h1 h2 h3).toBuf v = v := rfl
theorem ofBuf_v6 (h1 h2 h3) (v : (⟨S4096x256x256, .i1⟩ : BufTy).Contents (Elt F)) :
    (TRef.of (T := ⟨S4096x256x256, .i1⟩) main_v6 h1 h2 h3).ofBuf v = v := rfl
theorem ofBuf_v4 (h1 h2 h3) (v : (⟨S4096x256x256, .f32⟩ : BufTy).Contents (Elt F)) :
    (TRef.of (T := ⟨S4096x256x256, .f32⟩) main_v4 h1 h2 h3).ofBuf v = v := rfl
theorem ofBuf_cst_0 (h1 h2 h3) (v : (⟨S_, .f32⟩ : BufTy).Contents (Elt F)) :
    (TRef.of (T := ⟨S_, .f32⟩) main_cst_0 h1 h2 h3).ofBuf v = v := rfl
theorem ofBuf_cst (h1 h2 h3) (v : (⟨S_, .f32⟩ : BufTy).Contents (Elt F)) :
    (TRef.of (T := ⟨S_, .f32⟩) main_cst h1 h2 h3).ofBuf v = v := rfl

end Transport

/-! ## The result buffer after the line -/

set_option maxHeartbeats 1000000 in
/-- From any contents `V`, the result buffer after the line holds `refOut` of the three argument buffers' contents:
    each operation's result is its function of what its operand buffers hold, and the typed references of the two
    calls carry their contents unchanged. -/
theorem out_eq (V : Valuation τ sig (Elt F)) :
    after ops V (main_v13 : DevRef τ sig)
      = refOut (V (main_arg0 : DevRef τ sig)) (V (main_arg1 : DevRef τ sig)) (V (main_arg2 : DevRef τ sig)) := by
  after_results
  generalize V (Proc.devRef .tc main_arg0) = x
  generalize V (Proc.devRef .tc main_arg1) = w
  generalize V (Proc.devRef .tc main_arg2) = b
  simp only [ofBuf_toBuf, toBuf_v13, ofBuf_v9, ofBuf_v12, toBuf_v7, ofBuf_v6, ofBuf_v4, ofBuf_cst_0, ofBuf_cst]
  rfl

/-- No operation of the line writes an argument buffer. -/
theorem arg0_eq (V : Valuation τ sig (Elt F)) : after ops V (main_arg0 : DevRef τ sig) = V (main_arg0 : DevRef τ sig) := by
  after_results <;> rfl
theorem arg1_eq (V : Valuation τ sig (Elt F)) : after ops V (main_arg1 : DevRef τ sig) = V (main_arg1 : DevRef τ sig) := by
  after_results <;> rfl
theorem arg2_eq (V : Valuation τ sig (Elt F)) : after ops V (main_arg2 : DevRef τ sig) = V (main_arg2 : DevRef τ sig) := by
  after_results <;> rfl

/-! ## The run -/

/-- On every device, at any float values, from any memory with zero counters: every weakly fair execution of @main
    terminates, with the result buffer at `refOut` of the argument arrays as launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result, read entry by entry.

  `refOut x w b` (the reference's run, RefRun.lean) at entry `(i, j)`: the rank-3 array of sums is `x[i,k] + w[j,k]` at
  `(i, j, k)`; the two reductions over the last axis are folds over `k` of the mask bit (`or` from the clear bit) and of
  the masked sum (`max` from `-∞`); the bias is `b[j]`.  That is the gated tropical value of Tropical.lean, so the whole
  result is the array `G x w b`.
-/
import proofs.«145057_j20332375179466_2_alg».proof.Proof.RefRun
import proofs.«145057_j20332375179466_2_alg».proof.Proof.Tropical
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx Cert.Tropical

variable (x : (⟨S4096x256, .f32⟩ : BufTy).Contents (Elt Ideal)) (w : (⟨S256x256, .f32⟩ : BufTy).Contents (Elt Ideal))
  (b : (⟨S256, .f32⟩ : BufTy).Contents (Elt Ideal))

/-- The broadcast sums at `(i, j, k)`: row `i` of `x` and row `j` of `w` meet at column `k`. -/
theorem sums_apply (i : Fin 4096) (j k : Fin 256) : sums (F := Ideal) x w (ix3 i j k) = x (ix2 i k) + w (ix2 j k) := by
  unfold sums
  rw [addf_apply]
  congr 1
  · refine (broadcastInDim_apply _ bcast_S4096x1x256_S4096x256x256_0_1_2 _ (ix3 i j k) (ix3 i (0 : Fin 1) k) (fun a => ?_)).trans
      (broadcastInDim_apply _ bcast_S4096x256_S4096x1x256_0_2 x (ix3 i (0 : Fin 1) k) (ix2 i k) (fun a => ?_))
    · match a with
      | ⟨0, _⟩ => show i.val = if (4096 : Nat) = 1 then 0 else i.val; rw [if_neg (by decide)]
      | ⟨1, _⟩ => show 0 = if (1 : Nat) = 1 then 0 else j.val; rw [if_pos rfl]
      | ⟨2, _⟩ => show k.val = if (256 : Nat) = 1 then 0 else k.val; rw [if_neg (by decide)]
    · match a with
      | ⟨0, _⟩ => show i.val = if (4096 : Nat) = 1 then 0 else i.val; rw [if_neg (by decide)]
      | ⟨1, _⟩ => show k.val = if (256 : Nat) = 1 then 0 else k.val; rw [if_neg (by decide)]
  · refine (broadcastInDim_apply _ bcast_S1x256x256_S4096x256x256_0_1_2 _ (ix3 i j k) (ix3 (0 : Fin 1) j k) (fun a => ?_)).trans
      (broadcastInDim_apply _ bcast_S256x256_S1x256x256_1_2 w (ix3 (0 : Fin 1) j k) (ix2 j k) (fun a => ?_))
    · match a with
      | ⟨0, _⟩ => show 0 = if (1 : Nat) = 1 then 0 else i.val; rw [if_pos rfl]
      | ⟨1, _⟩ => show j.val = if (256 : Nat) = 1 then 0 else j.val; rw [if_neg (by decide)]
      | ⟨2, _⟩ => show k.val = if (256 : Nat) = 1 then 0 else k.val; rw [if_neg (by decide)]
    · match a with
      | ⟨0, _⟩ => show j.val = if (256 : Nat) = 1 then 0 else j.val; rw [if_neg (by decide)]
      | ⟨1, _⟩ => show k.val = if (256 : Nat) = 1 then 0 else k.val; rw [if_neg (by decide)]

/-- The mask at `(i, j, k)`: is the sum above the tropical zero. -/
theorem above_apply (i : Fin 4096) (j k : Fin 256) :
    above (F := Ideal) x w (ix3 i j k) = Ideal.cmp .ogt (x (ix2 i k) + w (ix2 j k)) Z := by
  show Ideal.cmp .ogt (sums (F := Ideal) x w (ix3 i j k)) Z = _
  rw [sums_apply]

/-- The masked sum at `(i, j, k)`: the sum where it is above the tropical zero, `-∞` elsewhere. -/
theorem masked_apply (i : Fin 4096) (j k : Fin 256) :
    masked (F := Ideal) x w (ix3 i j k)
      = Scalar.select (Ideal.cmp .ogt (x (ix2 i k) + w (ix2 j k)) Z) (x (ix2 i k) + w (ix2 j k)) ⊥ := by
  show Scalar.select (above (F := Ideal) x w (ix3 i j k)) (sums (F := Ideal) x w (ix3 i j k)) (Ideal.ofBits .f32 0xFF800000#32) = _
  rw [above_apply, sums_apply, negInf]

/-- The bias, broadcast down the rows, at `(i, j)` is `b[j]`. -/
theorem bias_apply (i : Fin 4096) (j : Fin 256) :
    (broadcastInDim S4096x256 ![0, 1] bcast_S1x256_S4096x256_0_1 (broadcastInDim S1x256 ![1] bcast_S256_S1x256_1 b)) (ix2 i j) = b (ix1 j) :=
  (broadcastInDim_apply _ bcast_S1x256_S4096x256_0_1 _ (ix2 i j) (ix2 (0 : Fin 1) j) (fun a => match a with
      | ⟨0, _⟩ => by show 0 = if (1 : Nat) = 1 then 0 else i.val; rw [if_pos rfl]
      | ⟨1, _⟩ => by show j.val = if (256 : Nat) = 1 then 0 else j.val; rw [if_neg (by decide)])).trans
    (broadcastInDim_apply _ bcast_S256_S1x256_1 b (ix2 (0 : Fin 1) j) (ix1 j) (fun a => match a with
      | ⟨0, _⟩ => by show j.val = if (256 : Nat) = 1 then 0 else j.val; rw [if_neg (by decide)]))

/-- The reference's result is the array of gated tropical products. -/
theorem refOut_eq : refOut (F := Ideal) x w b = G x w b := by
  funext i
  obtain ⟨p, q, rfl⟩ : ∃ (p : Fin 4096) (q : Fin 256), i = ix2 p q := ⟨i 0, i 1, eq_ix2 i⟩
  have hR : S4096x256x256.Reduces [2] S4096x256 := by decide
  -- the index over `(p, q)` with `k` inserted on the reduced axis is `(p, q, k)`
  have hlift : ∀ k : Fin 256, hR.lift (ix2 p q) k = ix3 p q k := fun k =>
    funext fun c => Fin.ext (match c with | ⟨0, _⟩ => rfl | ⟨1, _⟩ => rfl | ⟨2, _⟩ => rfl)
  have hany := Host.reduce_eq_fold_single IntOp.ori (above (F := Ideal) x w) (constantI S_ 1 0#1)
    reducesTo_S4096x256x256_S4096x256_d2 hR h_S_ (ix2 p q)
  have hmax := Host.reduce_eq_fold_single (FloatOps.maximumf (F := Ideal) (φ := .f32)) (masked (F := Ideal) x w : S4096x256x256.Idx → EReal)
    (constant (F := Ideal) S_ .f32 0xFF800000#32 : S_.Idx → EReal)
    reducesTo_S4096x256x256_S4096x256_d2 hR h_S_ (ix2 p q)
  have e1 : (above (F := Ideal) x w ∘ hR.lift (ix2 p q))
      = fun k : Fin 256 => Ideal.cmp .ogt (x (ix2 p k) + w (ix2 q k)) Z := funext fun (k : Fin 256) => by
    show above (F := Ideal) x w (hR.lift (ix2 p q) k) = _
    rw [hlift k]
    exact above_apply x w p q k
  have e2 : (masked (F := Ideal) x w ∘ hR.lift (ix2 p q))
      = fun k : Fin 256 => Scalar.select (Ideal.cmp .ogt (x (ix2 p k) + w (ix2 q k)) Z) (x (ix2 p k) + w (ix2 q k)) ⊥ :=
    funext fun (k : Fin 256) => by
      show masked (F := Ideal) x w (hR.lift (ix2 p q) k) = _
      rw [hlift k]
      exact masked_apply x w p q k
  have e3 : (constant (F := Ideal) S_ .f32 0xFF800000#32 : S_.Idx → EReal) (Shape.Idx.first h_S_) = ⊥ := negInf
  unfold refOut
  rw [select_apply, addf_apply, hany, hmax, bias_apply, e1, e2, e3]
  exact masked_gated Z _ _

end Cert.ReferenceIdeal.RefValue

end
-- ==== Proof.lean ====
/-
  The certificate's claims, assembled.

  Both programs compute a tropical (max-plus) matrix product with a gate: entry `(i, j)` of the result is
  `max_k (x[i,k] + w[j,k]) + bias[j]` when that maximum lies above the tropical zero `Z`, and `Z` otherwise.
  The kernel takes the maximum in two halves of the columns, block of 256 rows by block, and compares it with `Z`
  afterwards; the reference masks the sums that are not above `Z` to `-∞` before taking the maximum, and gates by "some
  sum is above `Z`".  Both are the array `Tropical.G` of the argument arrays (KernelArray.lean, RefValue.lean): the two
  readings of the gate agree on every linear order with a bottom (Tropical.lean), so the finiteness of the inputs is not
  used.  The three frames are the programs' runs with the result dropped; the idealization rewrote nothing, so it
  preserves trivially.
-/
import proofs.«145057_j20332375179466_2_alg».proof.Defs
import proofs.«145057_j20332375179466_2_alg».proof.Proof.Gen.Kernel
import proofs.«145057_j20332375179466_2_alg».proof.Proof.Gen.Kernel.Skeleton
import proofs.«145057_j20332375179466_2_alg».proof.Proof.Gen.Kernel.Launch
import proofs.«145057_j20332375179466_2_alg».proof.Proof.Gen.Kernel.Points
import proofs.«145057_j20332375179466_2_alg».proof.Proof.Gen.Kernel.Frame
import proofs.«145057_j20332375179466_2_alg».proof.Proof.Gen.KernelIdeal
import proofs.«145057_j20332375179466_2_alg».proof.Proof.Gen.KernelIdeal.Skeleton
import proofs.«145057_j20332375179466_2_alg».proof.Proof.Gen.KernelIdeal.Launch
import proofs.«145057_j20332375179466_2_alg».proof.Proof.Gen.KernelIdeal.Points
import proofs.«145057_j20332375179466_2_alg».proof.Proof.Gen.KernelIdeal.Frame
import proofs.«145057_j20332375179466_2_alg».proof.Proof.Gen.ReferenceIdeal
import proofs.«145057_j20332375179466_2_alg».proof.Proof.Gen.Pre_finite_inputs
import proofs.«145057_j20332375179466_2_alg».proof.Proof.Gen.KernelIdeal.Value
import proofs.«145057_j20332375179466_2_alg».proof.Proof.KernelArray
import proofs.«145057_j20332375179466_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories that agree on the three arguments, both idealized programs end with the result array at `G` of
    the arguments: the kernel by its blocks, the reference by its run read entry by entry. -/
theorem algebraic : Cert.algebraic_KernelIdeal_ReferenceIdeal := by
  intro m ρ m' ρ' _ hagree
  refine ⟨fun c => Cert.Tropical.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefValue.refOut_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
